-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x256 : Shape := ⟨2, ![65536, 256]⟩
abbrev S128x256 : Shape := ⟨2, ![128, 256]⟩
abbrev S256x256 : Shape := ⟨2, ![256, 256]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S65536x128 .f32) (main_arg1 : FVec F S65536x256 .f32) (main_arg2 : IVec S65536x256 32) (main_arg3 : FVec F S65536x256 .f32) (main_arg4 : FVec F S128x256 .f32) (main_arg5 : FVec F S256x256 .f32) (main_arg6 : IVec S256x256 1) (main_arg7 : IVec S256x256 1) (main_arg8 : IVec S256x256 1) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg3
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_v13 main_v16
-- ==== Kernel.lean ====
abbrev S65536x128 : Shape := ⟨2, ![65536, 128]⟩
abbrev S65536x256 : Shape := ⟨2, ![65536, 256]⟩
abbrev S128x256 : Shape := ⟨2, ![128, 256]⟩
abbrev S256x256 : Shape := ⟨2, ![256, 256]⟩
abbrev S_ : Shape := ⟨0, ![]⟩
abbrev S2048x128 : Shape := ⟨2, ![2048, 128]⟩
abbrev S2048x256 : Shape := ⟨2, ![2048, 256]⟩

abbrev nBuf : Space → Nat
  | .hbm => 29
  | .vmem => 16
  | .smem => 0
  | _ => 0

abbrev bufTy : (tb : Table) → Fin (tcTables nBuf tb) → BufTy
  | .hbm, ⟨0, _⟩ => ⟨S65536x128, .f32⟩
  | .hbm, ⟨1, _⟩ => ⟨S65536x256, .f32⟩
  | .hbm, ⟨2, _⟩ => ⟨S65536x256, .i32⟩
  | .hbm, ⟨3, _⟩ => ⟨S65536x256, .f32⟩
  | .hbm, ⟨4, _⟩ => ⟨S128x256, .f32⟩
  | .hbm, ⟨5, _⟩ => ⟨S256x256, .f32⟩
  | .hbm, ⟨6, _⟩ => ⟨S256x256, .i1⟩
  | .hbm, ⟨7, _⟩ => ⟨S256x256, .i1⟩
  | .hbm, ⟨8, _⟩ => ⟨S256x256, .i1⟩
  | .hbm, ⟨9, _⟩ => ⟨S_, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S65536x256, .f32⟩
  | .hbm, ⟨27, _⟩ => ⟨S65536x256, .f32⟩
  | .hbm, ⟨28, _⟩ => ⟨S65536x256, .i32⟩
  | .local _ .vmem, ⟨0, _⟩ => ⟨S2048x128, .f32⟩
  | .local _ .vmem, ⟨1, _⟩ => ⟨S2048x128, .f32⟩
  | .local _ .vmem, ⟨2, _⟩ => ⟨S2048x256, .f32⟩
  | .local _ .vmem, ⟨3, _⟩ => ⟨S2048x256, .f32⟩
  | .local _ .vmem, ⟨4, _⟩ => ⟨S2048x256, .i32⟩
  | .local _ .vmem, ⟨5, _⟩ => ⟨S2048x256, .i32⟩
  | .local _ .vmem, ⟨6, _⟩ => ⟨S2048x256, .f32⟩
  | .local _ .vmem, ⟨7, _⟩ => ⟨S2048x256, .f32⟩
  | .local _ .vmem, ⟨8, _⟩ => ⟨S128x256, .f32⟩
  | .local _ .vmem, ⟨9, _⟩ => ⟨S256x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .i32⟩
  | .local _ .vmem, ⟨15, _⟩ => ⟨S2048x256, .i32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v0 : Ref sig .tc := ⟨.hbm, 12, rfl⟩
abbrev main_call1_cst : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_call2_cst : Ref sig .tc := ⟨.hbm, 17, rfl⟩
abbrev main_call2_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_call4_v0 : Ref sig .tc := ⟨.hbm, 23, rfl⟩
abbrev main_call4_v1 : Ref sig .tc := ⟨.hbm, 24, rfl⟩
abbrev main_v6 : Ref sig .tc := ⟨.hbm, 25, rfl⟩
abbrev main_v7_0 : Ref sig .tc := ⟨.hbm, 26, rfl⟩
abbrev main_v7_1 : Ref sig .tc := ⟨.hbm, 27, rfl⟩
abbrev main_v7_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S256x256 : S_.BroadcastsInDim S256x256 (![] : Fin 0 → Fin S256x256.rank)
  inb_S2048x128_S2048x128_0_0 : ∀ a, (![0, 0] : Fin 2 → Nat) a + S2048x128.size a ≤ S2048x128.size a
  h_S2048x128 : 0 < S2048x128.numel
  inb_S2048x256_S2048x256_0_0 : ∀ a, (![0, 0] : Fin 2 → Nat) a + S2048x256.size a ≤ S2048x256.size a
  h_S2048x256 : 0 < S2048x256.numel
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  natLt_1_32 : 1 < 32
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .i32 = 32 ∨ (Rect.block (s := S65536x256) S2048x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .f32 = 32 ∨ (Rect.block (s := S65536x256) S2048x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S65536x256.size a
  hwx0_8 : ∀ i : grid0.Coords, EltTy.bits .i32 = 32 ∨ (Rect.block (s := S65536x256) S2048x256.size (cc0_transform_8 i) (hinb0_8 i)).WholeWords (EltTy.packing .i32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_2) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x128 : Shape := ⟨2, ![65536, 128]⟩
abbrev S65536x256 : Shape := ⟨2, ![65536, 256]⟩
abbrev S128x256 : Shape := ⟨2, ![128, 256]⟩
abbrev S256x256 : Shape := ⟨2, ![256, 256]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536x256, .f32⟩
  | .hbm, ⟨2, _⟩ => ⟨S65536x256, .i32⟩
  | .hbm, ⟨3, _⟩ => ⟨S65536x256, .f32⟩
  | .hbm, ⟨4, _⟩ => ⟨S128x256, .f32⟩
  | .hbm, ⟨5, _⟩ => ⟨S256x256, .f32⟩
  | .hbm, ⟨6, _⟩ => ⟨S256x256, .i1⟩
  | .hbm, ⟨7, _⟩ => ⟨S256x256, .i1⟩
  | .hbm, ⟨8, _⟩ => ⟨S256x256, .i1⟩
  | .hbm, ⟨9, _⟩ => ⟨S_, .f32⟩
  | .hbm, ⟨10, _⟩ => ⟨S_, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S_, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S65536x256, .f32⟩
  | .hbm, ⟨39, _⟩ => ⟨S65536x256, .f32⟩
  | .hbm, ⟨40, _⟩ => ⟨S_, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S65536x256, .f32⟩
  | .hbm, ⟨45, _⟩ => ⟨S65536x256, .i1⟩
  | .hbm, ⟨46, _⟩ => ⟨S65536x256, .f32⟩
  | .hbm, ⟨47, _⟩ => ⟨S_, .i32⟩
  | .hbm, ⟨48, _⟩ => ⟨S65536x256, .i32⟩
  | .hbm, ⟨49, _⟩ => ⟨S65536x256, .i1⟩
  | .hbm, ⟨50, _⟩ => ⟨S_, .f32⟩
  | .hbm, ⟨51, _⟩ => ⟨S_, .f32⟩
  | .hbm, ⟨52, _⟩ => ⟨S65536x256, .f32⟩
  | .hbm, ⟨53, _⟩ => ⟨S65536x256, .f32⟩
  | .hbm, ⟨54, _⟩ => ⟨S_, .i32⟩
  | .hbm, ⟨55, _⟩ => ⟨S65536x256, .i32⟩
  | .hbm, ⟨56, _⟩ => ⟨S65536x256, .i32⟩
  | .hbm, ⟨57, _⟩ => ⟨S_, .f32⟩
  | .hbm, ⟨58, _⟩ => ⟨S65536x256, .f32⟩
  | .hbm, ⟨59, _⟩ => ⟨S65536x256, .f32⟩
  | .hbm, ⟨60, _⟩ => ⟨S65536x256, .i32⟩
  | .hbm, ⟨61, _⟩ => ⟨S65536x256, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S65536x256, .i32⟩
  | .hbm, ⟨66, _⟩ => ⟨S65536x256, .i32⟩
  | .hbm, ⟨67, _⟩ => ⟨S_, .i32⟩
  | .hbm, ⟨68, _⟩ => ⟨S65536x256, .i32⟩
  | .hbm, ⟨69, _⟩ => ⟨S65536x256, .i32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v0 : Ref sig .tc := ⟨.hbm, 12, rfl⟩
abbrev main_call1_cst : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_call2_cst : Ref sig .tc := ⟨.hbm, 17, rfl⟩
abbrev main_call2_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_call4_v0 : Ref sig .tc := ⟨.hbm, 23, rfl⟩
abbrev main_call4_v1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c : Ref sig .tc := ⟨.hbm, 47, rfl⟩
abbrev main_v23 : Ref sig .tc := ⟨.hbm, 48, rfl⟩
abbrev main_v24 : Ref sig .tc := ⟨.hbm, 49, rfl⟩
abbrev main_cst_6 : Ref sig .tc := ⟨.hbm, 50, rfl⟩
abbrev main_call5_v0 : Ref sig .tc := ⟨.hbm, 51, rfl⟩
abbrev main_call5_v1 : Ref sig .tc := ⟨.hbm, 52, rfl⟩
abbrev main_v25 : Ref sig .tc := ⟨.hbm, 53, rfl⟩
abbrev main_c_7 : Ref sig .tc := ⟨.hbm, 54, rfl⟩
abbrev main_v26 : Ref sig .tc := ⟨.hbm, 55, rfl⟩
abbrev main_v27 : Ref sig .tc := ⟨.hbm, 56, rfl⟩
abbrev main_cst_8 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_9 : Ref sig .tc := ⟨.hbm, 62, rfl⟩
abbrev main_c_10 : Ref sig .tc := ⟨.hbm, 63, rfl⟩
abbrev main_call6_v0 : Ref sig .tc := ⟨.hbm, 64, rfl⟩
abbrev main_call6_v1 : Ref sig .tc := ⟨.hbm, 65, rfl⟩
abbrev main_call6_v2 : Ref sig .tc := ⟨.hbm, 66, rfl⟩
abbrev main_call6_v3 : Ref sig .tc := ⟨.hbm, 67, rfl⟩
abbrev main_call6_v4 : Ref sig .tc := ⟨.hbm, 68, rfl⟩
abbrev main_v32 : Ref sig .tc := ⟨.hbm, 69, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S_S65536x256 : S_.BroadcastsInDim S65536x256 (![] : Fin 0 → Fin S65536x256.rank)
  dot_S65536x128_S128x256_S65536x256_1_0_0_1_n_n_wf : DotDims.WF S65536x128 S128x256 S65536x256 [1] [0] [0] [1] [] []
  dot_S65536x256_S256x256_S65536x256_1_0_0_1_n_n_wf : DotDims.WF S65536x256 S256x256 S65536x256 [1] [0] [0] [1] [] []

variable [Facts₀]

def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.KernelProducts.lean ====
/-
  The two matrix products of one block of the kernel, read at an entry.

  A block is 2048 batch rows. Its input current is the product of the block's 2048 × 128 input rows with the
  128 × 256 input weights; its recurrent current is the product of the block's 2048 × 256 previous spikes with the
  256 × 256 masked recurrent weights. Both products start from a zero accumulator, so over the extended reals
  entry (p, q) of each is just the finite sum of products along the contracted axis — whatever order or precision
  the hardware would use. The recurrent weights pass through a shape cast between equal shapes, which is the identity.
-/
import proofs.«141467_j11364483465332_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Products

open Cert.KernelIdeal Cert.KernelIdeal.Gen Idealize.ShloMosaic Idealize.ShloMosaic.ValueIdx

/-! ### The input current: rows of the input block against columns of the input weights -/

theorem inputProduct_lhs_row (i : S2048x256.Idx) (c : dot_S2048x128_S128x256_S2048x256_1_0_0_1_n_n.contr.Idx) :
    (dot_S2048x128_S128x256_S2048x256_1_0_0_1_n_n.lhsIdx i c 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem inputProduct_lhs_col (i : S2048x256.Idx) (c : dot_S2048x128_S128x256_S2048x256_1_0_0_1_n_n.contr.Idx) :
    (dot_S2048x128_S128x256_S2048x256_1_0_0_1_n_n.lhsIdx i c 1).val = (c ⟨0, by decide⟩).val :=
  dot_S2048x128_S128x256_S2048x256_1_0_0_1_n_n.lhsIdx_val_of_single rfl i c
theorem inputProduct_rhs_row (i : S2048x256.Idx) (c : dot_S2048x128_S128x256_S2048x256_1_0_0_1_n_n.contr.Idx) :
    (dot_S2048x128_S128x256_S2048x256_1_0_0_1_n_n.rhsIdx i c 0).val = (c ⟨0, by decide⟩).val :=
  dot_S2048x128_S128x256_S2048x256_1_0_0_1_n_n.rhsIdx_val_of_single rfl i c
theorem inputProduct_rhs_col (i : S2048x256.Idx) (c : dot_S2048x128_S128x256_S2048x256_1_0_0_1_n_n.contr.Idx) :
    (dot_S2048x128_S128x256_S2048x256_1_0_0_1_n_n.rhsIdx i c 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- Entry (p, q) of the product, accumulated from zero, is the sum over the 128 contracted positions of the
    left operand's row `p` times the right operand's column `q`. -/
theorem inputProduct_at (x : FVec Ideal S2048x128 .f32) (iw : FVec Ideal S128x256 .f32) (p : Fin 2048) (q : Fin 256) :
    matmul dot_S2048x128_S128x256_S2048x256_1_0_0_1_n_n (some .fp32) x iw (constant (F := Ideal) S2048x256 .f32 0x00000000#32) (ix2 p q)
      = ∑ k : Fin 128, x (ix2 p k) * iw (ix2 k q) := by
  simp only [matmul]
  rw [Ideal.matmul_constant_zero_apply, ← Equiv.sum_comp (ValueIdx.contrEquiv1 dot_S2048x128_S128x256_S2048x256_1_0_0_1_n_n 128 rfl rfl).symm]
  refine Finset.sum_congr rfl fun k _ => ?_
  have hk := ValueIdx.contrEquiv1_symm_val dot_S2048x128_S128x256_S2048x256_1_0_0_1_n_n 128 rfl rfl k
  have el : dot_S2048x128_S128x256_S2048x256_1_0_0_1_n_n.lhsIdx (ix2 p q) ((ValueIdx.contrEquiv1 dot_S2048x128_S128x256_S2048x256_1_0_0_1_n_n 128 rfl rfl).symm k) = ix2 p k := funext fun a => Fin.ext (by
    match a with
    | ⟨0, _⟩ => exact inputProduct_lhs_row _ _
    | ⟨1, _⟩ => exact (inputProduct_lhs_col _ _).trans hk)
  have er : dot_S2048x128_S128x256_S2048x256_1_0_0_1_n_n.rhsIdx (ix2 p q) ((ValueIdx.contrEquiv1 dot_S2048x128_S128x256_S2048x256_1_0_0_1_n_n 128 rfl rfl).symm k) = ix2 k q := funext fun a => Fin.ext (by
    match a with
    | ⟨0, _⟩ => exact (inputProduct_rhs_row _ _).trans hk
    | ⟨1, _⟩ => exact inputProduct_rhs_col _ _)
  rw [el, er]

/-! ### The recurrent current: rows of the spike block against columns of the masked weights -/

theorem recurrentProduct_lhs_row (i : S2048x256.Idx) (c : dot_S2048x256_S256x256_S2048x256_1_0_0_1_n_n.contr.Idx) :
    (dot_S2048x256_S256x256_S2048x256_1_0_0_1_n_n.lhsIdx i c 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem recurrentProduct_lhs_col (i : S2048x256.Idx) (c : dot_S2048x256_S256x256_S2048x256_1_0_0_1_n_n.contr.Idx) :
    (dot_S2048x256_S256x256_S2048x256_1_0_0_1_n_n.lhsIdx i c 1).val = (c ⟨0, by decide⟩).val :=
  dot_S2048x256_S256x256_S2048x256_1_0_0_1_n_n.lhsIdx_val_of_single rfl i c
theorem recurrentProduct_rhs_row (i : S2048x256.Idx) (c : dot_S2048x256_S256x256_S2048x256_1_0_0_1_n_n.contr.Idx) :
    (dot_S2048x256_S256x256_S2048x256_1_0_0_1_n_n.rhsIdx i c 0).val = (c ⟨0, by decide⟩).val :=
  dot_S2048x256_S256x256_S2048x256_1_0_0_1_n_n.rhsIdx_val_of_single rfl i c
theorem recurrentProduct_rhs_col (i : S2048x256.Idx) (c : dot_S2048x256_S256x256_S2048x256_1_0_0_1_n_n.contr.Idx) :
    (dot_S2048x256_S256x256_S2048x256_1_0_0_1_n_n.rhsIdx i c 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry (p, q) of the product, accumulated from zero, is the sum over the 256 contracted positions of the
    left operand's row `p` times the right operand's column `q`. -/
theorem recurrentProduct_at (z : FVec Ideal S2048x256 .f32) (w : FVec Ideal S256x256 .f32) (p : Fin 2048) (q : Fin 256) :
    matmul dot_S2048x256_S256x256_S2048x256_1_0_0_1_n_n (some .fp32) z (shapeCast S256x256 w shapeCasts_S256x256_S256x256) (constant (F := Ideal) S2048x256 .f32 0x00000000#32) (ix2 p q)
      = ∑ k : Fin 256, z (ix2 p k) * w (ix2 k q) := by
  rw [shapeCast_self]
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p q) ((ValueIdx.contrEquiv1 dot_S2048x256_S256x256_S2048x256_1_0_0_1_n_n 256 rfl rfl).symm k) = ix2 p k := funext fun a => Fin.ext (by
    match a with
    | ⟨0, _⟩ => exact recurrentProduct_lhs_row _ _
    | ⟨1, _⟩ => exact (recurrentProduct_lhs_col _ _).trans hk)
  have er : dot_S2048x256_S256x256_S2048x256_1_0_0_1_n_n.rhsIdx (ix2 p q) ((ValueIdx.contrEquiv1 dot_S2048x256_S256x256_S2048x256_1_0_0_1_n_n 256 rfl rfl).symm k) = ix2 k q := funext fun a => Fin.ext (by
    match a with
    | ⟨0, _⟩ => exact (recurrentProduct_rhs_row _ _).trans hk
    | ⟨1, _⟩ => exact recurrentProduct_rhs_col _ _)
  rw [el, er]

end Cert.KernelIdeal.Products

end
-- ==== Proof.LifStep.lean ====
/-
  One step of a layer of 256 leaky integrate-and-fire neurons over a batch of 65536 rows, as exact arithmetic
  on the extended reals.

  For row `p` and neuron `q` the step computes, from the input row `x p`, the previous potentials `v`, the
  previous spikes `z`, the refractory counters `r`, the input weights `iw` and the (masked) recurrent weights `w`:

    input current      a = Σ_k x(p,k) · iw(k,q)            (k < 128)
    recurrent current  b = Σ_k z(p,k) · w(k,q)             (k < 256)
    new potential      u = decay · v(p,q) + ((a + b) − 1 · z(p,q))
    threshold bit      c = [ (u − 1) / 1 > 0 ]
    new spike          s = 0 if r(p,q) > 0 (the neuron is refractory), else c read as the number 0 or 1
    new counter        r' = min(5, max(0, (r(p,q) − 1) + trunc(s · 5)))

  The float constants are kept as the binary words the two programs print (the same words on both sides, so
  none of them is ever evaluated): decay = 0x3F7383C6, one = 0x3F800000, zero = 0x00000000, five = 0x40A00000.

  The recurrent weights are masked before use, entry by entry: kept where the connectivity mask is set (else 0);
  then their positive part where the sign mask is set and minus the positive part of their negation elsewhere;
  then 0 where the disconnect mask is set.
-/
import Idealize.ShloMosaic.PureOps.Ideal
import Idealize.ShloMosaic.PureOps.Ideal.Laws
import Idealize.ShloMosaic.Lib.ValueIdx

noncomputable section

namespace Cert.LifStep

open Idealize.ShloMosaic Idealize.ShloMosaic.ValueIdx

/-! ## One neuron -/

/-- The new membrane potential from the two currents `a`, `b`, the old potential `v` and the old spike `z`. -/
def membrane (a b v z : EReal) : EReal :=
  Ideal.ofBits .f32 0x3F7383C6#32 * v + ((a + b) - Ideal.ofBits .f32 0x3F800000#32 * z)

/-- The threshold test on a potential `u`: the one bit `(u − 1) / 1 > 0`. -/
def crossed (u : EReal) : BitVec 1 :=
  FloatOps.cmpf (F := Ideal) (φ := .f32) .ogt
    (Ideal.div (u - Ideal.ofBits .f32 0x3F800000#32) (Ideal.ofBits .f32 0x3F800000#32)) (Ideal.ofBits .f32 0x00000000#32)

/-- The new spike: none while the counter `r` is positive, otherwise the threshold bit as a number. -/
def spike (r : BitVec 32) (u : EReal) : EReal :=
  Scalar.select (IntOp.cmpi .sgt r 0#32) (Ideal.ofBits .f32 0x00000000#32) (((crossed u).toNat : ℝ) : EReal)

/-- The new refractory counter: one less, plus five on a spike, kept within 0 … 5. -/
def counter (r : BitVec 32) (u : EReal) : BitVec 32 :=
  IntOp.minsi 5#32 (IntOp.maxsi 0#32 (IntOp.addi (IntOp.subi r 1#32)
    (Ideal.fptosi 32 (spike r u * Ideal.ofBits .f32 0x40A00000#32))))

/-- A single bit widened to 32 bits and read as a signed integer is the bit read as a natural number: the
    widened word is 0 or 1, far below 2³¹. -/
theorem toInt_setWidth_bit (b : BitVec 1) : ((b.setWidth 32).toInt : ℝ) = (b.toNat : ℝ) := by
  by_cases h : b = 1#1
  · subst h; norm_num [BitVec.toInt]
  · have h0 := eq_zero_of_ne_one h; subst h0; norm_num [BitVec.toInt]

/-! ## The whole arrays -/

/-- The input current of row `p` into neuron `q`. -/
def inputCurrent (x : (⟨2, ![65536, 128]⟩ : Shape).Idx → EReal) (iw : (⟨2, ![128, 256]⟩ : Shape).Idx → EReal)
    (p : Fin 65536) (q : Fin 256) : EReal :=
  ∑ k : Fin 128, x (ix2 p k) * iw (ix2 k q)

/-- The recurrent current of row `p` into neuron `q`. -/
def recurrentCurrent (z : (⟨2, ![65536, 256]⟩ : Shape).Idx → EReal) (w : (⟨2, ![256, 256]⟩ : Shape).Idx → EReal)
    (p : Fin 65536) (q : Fin 256) : EReal :=
  ∑ k : Fin 256, z (ix2 p k) * w (ix2 k q)

/-- The row of an index of a 65536 × 256 array. -/
abbrev rowOf (i : (⟨2, ![65536, 256]⟩ : Shape).Idx) : Fin 65536 := ⟨(i 0).val, idx2_lt0 i⟩

/-- The neuron (column) of an index of a 65536 × 256 array. -/
abbrev unitOf (i : (⟨2, ![65536, 256]⟩ : Shape).Idx) : Fin 256 := ⟨(i 1).val, idx2_lt1 i⟩

/-- The array of new potentials. -/
def potentials (x : (⟨2, ![65536, 128]⟩ : Shape).Idx → EReal) (v z : (⟨2, ![65536, 256]⟩ : Shape).Idx → EReal)
    (iw : (⟨2, ![128, 256]⟩ : Shape).Idx → EReal) (w : (⟨2, ![256, 256]⟩ : Shape).Idx → EReal) :
    (⟨2, ![65536, 256]⟩ : Shape).Idx → EReal :=
  fun i => membrane (inputCurrent x iw (rowOf i) (unitOf i)) (recurrentCurrent z w (rowOf i) (unitOf i)) (v i) (z i)

/-- The array of new spikes. -/
def spikes (x : (⟨2, ![65536, 128]⟩ : Shape).Idx → EReal) (v : (⟨2, ![65536, 256]⟩ : Shape).Idx → EReal)
    (r : (⟨2, ![65536, 256]⟩ : Shape).Idx → BitVec 32) (z : (⟨2, ![65536, 256]⟩ : Shape).Idx → EReal)
    (iw : (⟨2, ![128, 256]⟩ : Shape).Idx → EReal) (w : (⟨2, ![256, 256]⟩ : Shape).Idx → EReal) :
    (⟨2, ![65536, 256]⟩ : Shape).Idx → EReal :=
  fun i => spike (r i) (potentials x v z iw w i)

/-- The array of new refractory counters. -/
def counters (x : (⟨2, ![65536, 128]⟩ : Shape).Idx → EReal) (v : (⟨2, ![65536, 256]⟩ : Shape).Idx → EReal)
    (r : (⟨2, ![65536, 256]⟩ : Shape).Idx → BitVec 32) (z : (⟨2, ![65536, 256]⟩ : Shape).Idx → EReal)
    (iw : (⟨2, ![128, 256]⟩ : Shape).Idx → EReal) (w : (⟨2, ![256, 256]⟩ : Shape).Idx → EReal) :
    (⟨2, ![65536, 256]⟩ : Shape).Idx → BitVec 32 :=
  fun i => counter (r i) (potentials x v z iw w i)

/-- The masked recurrent weights, entry by entry. -/
def maskedWeights (rw : (⟨2, ![256, 256]⟩ : Shape).Idx → EReal)
    (conn ei disc : (⟨2, ![256, 256]⟩ : Shape).Idx → BitVec 1) : (⟨2, ![256, 256]⟩ : Shape).Idx → EReal :=
  fun j =>
    Scalar.select (disc j) (Ideal.ofBits .f32 0x00000000#32)
      (Scalar.select (ei j)
        (max (Scalar.select (conn j) (rw j) (Ideal.ofBits .f32 0x00000000#32)) (Ideal.ofBits .f32 0x00000000#32))
        (-(max (-(Scalar.select (conn j) (rw j) (Ideal.ofBits .f32 0x00000000#32))) (Ideal.ofBits .f32 0x00000000#32))))

end Cert.LifStep

end
-- ==== Proof.KernelPayload.lean ====
/-
  What one block of the kernel stores, read at an entry.

  For a block of 2048 rows with input rows `x`, previous spikes `z`, input weights `iw`, masked recurrent weights
  `w`, previous potentials `v` and refractory counters `r`, entry (p, q) of the three stored arrays is one neuron's
  update (LifStep): the new potential `membrane a b v z` with `a`, `b` the two currents as finite sums; the new
  spike; the new counter. Apart from the two matrix products everything is entry by entry. The kernel turns the
  threshold bit into a number by widening it to 32 bits and converting that as a signed integer, which is the bit
  read as 0 or 1.
-/
import proofs.«141467_j11364483465332_2_alg».proof.Proof.Gen.KernelIdeal.Skeleton
import proofs.«141467_j11364483465332_2_alg».proof.Proof.KernelProducts
import proofs.«141467_j11364483465332_2_alg».proof.Proof.LifStep

noncomputable section

namespace Cert.KernelIdeal.Payload

open Cert.KernelIdeal Cert.KernelIdeal.Gen Idealize.ShloMosaic Idealize.ShloMosaic.ValueIdx
open Cert.LifStep Cert.KernelIdeal.Products

/-- The stored potential at (p, q): decay · v + ((input current + recurrent current) − 1 · z). -/
theorem potential_at (x : FVec Ideal S2048x128 .f32) (z : FVec Ideal S2048x256 .f32) (iw : FVec Ideal S128x256 .f32)
    (w : FVec Ideal S256x256 .f32) (v : FVec Ideal S2048x256 .f32) (p : Fin 2048) (q : Fin 256) :
    k0_pay2 (F := Ideal) x z iw w v (ix2 p q)
      = membrane (∑ k : Fin 128, x (ix2 p k) * iw (ix2 k q)) (∑ k : Fin 256, z (ix2 p k) * w (ix2 k q))
          (v (ix2 p q)) (z (ix2 p q)) := by
  unfold membrane
  rw [← inputProduct_at x iw p q, ← recurrentProduct_at z w p q]
  rfl

/-- The stored spike at (p, q) is the neuron's new spike for the stored potential there. -/
theorem spike_at (x : FVec Ideal S2048x128 .f32) (z : FVec Ideal S2048x256 .f32) (iw : FVec Ideal S128x256 .f32)
    (w : FVec Ideal S256x256 .f32) (v : FVec Ideal S2048x256 .f32) (r : IVec S2048x256 32) (p : Fin 2048) (q : Fin 256) :
    k0_pay3 (F := Ideal) x z iw w v r (ix2 p q)
      = spike (r (ix2 p q)) (k0_pay2 (F := Ideal) x z iw w v (ix2 p q)) := by
  unfold spike
  rw [← toInt_setWidth_bit]
  rfl

/-- The stored counter at (p, q) is the neuron's new counter for the stored potential there. -/
theorem counter_at (x : FVec Ideal S2048x128 .f32) (z : FVec Ideal S2048x256 .f32) (iw : FVec Ideal S128x256 .f32)
    (w : FVec Ideal S256x256 .f32) (v : FVec Ideal S2048x256 .f32) (r : IVec S2048x256 32) (p : Fin 2048) (q : Fin 256) :
    k0_pay1 (k0_pay4 (F := Ideal) r) (k0_pay5 (F := Ideal) x z iw w v r) (ix2 p q)
      = counter (r (ix2 p q)) (k0_pay2 (F := Ideal) x z iw w v (ix2 p q)) := by
  unfold counter
  rw [← spike_at x z iw w v r p q]
  rfl

end Cert.KernelIdeal.Payload

end
-- ==== Proof.KernelArrays.lean ====
/-
  From the kernel's blocks to its three whole result arrays.

  The kernel runs 32 points; point `t` works on rows 2048·t … 2048·t + 2047 of the batch. The blocks of the inputs,
  potentials, counters and spikes at point `t` are those rows of their arrays; the two weight matrices are staged
  whole at every point. So entry (p, q) of what point `t` stores is one neuron's update (KernelPayload) for row
  2048·t + p and neuron q of the whole arrays — the specification (LifStep) read at that index — and, since row `n`
  lies in the block of point `n / 2048`, the 32 blocks written back tile each result array: after the run the three
  result arrays are `potentials`, `spikes` and `counters` of the arrays as the region finds them.
-/
import proofs.«141467_j11364483465332_2_alg».proof.Proof.Gen.KernelIdeal.Value
import proofs.«141467_j11364483465332_2_alg».proof.Proof.KernelPayload
import proofs.«141467_j11364483465332_2_alg».proof.Proof.LifStep
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Value Idealize.ShloMosaic Idealize.ShloMosaic.TcCoe Idealize.SL.Sem
open Idealize.ShloMosaic.ValueIdx Cert.LifStep
open Idealize.ShloMosaic.Pipeline (Dat)

variable (m : (ℓ : Loc nD τ sig) → Buf (Elt Ideal) ℓ)

theorem zeros : (![0, 0] : Fin 2 → Nat) = fun _ => 0 := funext fun a => by fin_cases a <;> rfl

/-- The printed index maps, decided over the 32 points: the seven row-blocked windows sit at block (t, 0), the two
    weight windows at block (0, 0). -/
theorem block_index : ∀ t : Fin cfg0.N, t.val < 32 ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The array row of row `p` of the block of point `t`. -/
abbrev blockRow (t : Fin cfg0.N) (p : Fin 2048) : Fin 65536 :=
  ⟨t.val * 2048 + p.val, by have := (block_index t).1; have := p.isLt; omega⟩

/-! ## Where a block's entries sit in its array -/

/-- Entry (p, j) of window 0's block at point `t` is entry (2048·t + p, j) of its array (the inputs). -/
theorem place0 (t : Fin cfg0.N) (p : Fin 2048) (j : Fin 128) :
    ((cfg0.win 0).blk t).view.emb (ix2 p j) = ix2 (blockRow t p) j := by
  obtain ⟨ht, r0, c0, r1, c1, r2, c2, r3, c3, r6, c6, r7, c7, r8, c8, r4, c4, r5, c5⟩ := block_index t
  funext a; apply Fin.ext
  match a with
  | ⟨0, _⟩ => show win0_0.index t (0 : Fin 2) * 2048 + 1 * p.val = t.val * 2048 + p.val; omega
  | ⟨1, _⟩ => show win0_0.index t (1 : Fin 2) * 128 + 1 * j.val = j.val; omega

/-- Entry (p, j) of window 1's block at point `t` is entry (2048·t + p, j) of its array (the potentials). -/
theorem place1 (t : Fin cfg0.N) (p : Fin 2048) (j : Fin 256) :
    ((cfg0.win 1).blk t).view.emb (ix2 p j) = ix2 (blockRow t p) j := by
  obtain ⟨ht, r0, c0, r1, c1, r2, c2, r3, c3, r6, c6, r7, c7, r8, c8, r4, c4, r5, c5⟩ := block_index t
  funext a; apply Fin.ext
  match a with
  | ⟨0, _⟩ => show win0_1.index t (0 : Fin 2) * 2048 + 1 * p.val = t.val * 2048 + p.val; omega
  | ⟨1, _⟩ => show win0_1.index t (1 : Fin 2) * 256 + 1 * j.val = j.val; omega

/-- Entry (p, j) of window 2's block at point `t` is entry (2048·t + p, j) of its array (the counters). -/
theorem place2 (t : Fin cfg0.N) (p : Fin 2048) (j : Fin 256) :
    ((cfg0.win 2).blk t).view.emb (ix2 p j) = ix2 (blockRow t p) j := by
  obtain ⟨ht, r0, c0, r1, c1, r2, c2, r3, c3, r6, c6, r7, c7, r8, c8, r4, c4, r5, c5⟩ := block_index t
  funext a; apply Fin.ext
  match a with
  | ⟨0, _⟩ => show win0_2.index t (0 : Fin 2) * 2048 + 1 * p.val = t.val * 2048 + p.val; omega
  | ⟨1, _⟩ => show win0_2.index t (1 : Fin 2) * 256 + 1 * j.val = j.val; omega

/-- Entry (p, j) of window 3's block at point `t` is entry (2048·t + p, j) of its array (the spikes). -/
theorem place3 (t : Fin cfg0.N) (p : Fin 2048) (j : Fin 256) :
    ((cfg0.win 3).blk t).view.emb (ix2 p j) = ix2 (blockRow t p) j := by
  obtain ⟨ht, r0, c0, r1, c1, r2, c2, r3, c3, r6, c6, r7, c7, r8, c8, r4, c4, r5, c5⟩ := block_index t
  funext a; apply Fin.ext
  match a with
  | ⟨0, _⟩ => show win0_3.index t (0 : Fin 2) * 2048 + 1 * p.val = t.val * 2048 + p.val; omega
  | ⟨1, _⟩ => show win0_3.index t (1 : Fin 2) * 256 + 1 * j.val = j.val; omega

/-- Window 4 is the whole of its array at every point: entry (k, j) of the block is entry (k, j) of the array (the input weights). -/
theorem place4 (t : Fin cfg0.N) (k : Fin 128) (j : Fin 256) :
    ((cfg0.win 4).blk t).view.emb (ix2 k j) = ix2 k j := by
  obtain ⟨ht, r0, c0, r1, c1, r2, c2, r3, c3, r6, c6, r7, c7, r8, c8, r4, c4, r5, c5⟩ := block_index t
  funext a; apply Fin.ext
  match a with
  | ⟨0, _⟩ => show win0_4.index t (0 : Fin 2) * 128 + 1 * k.val = k.val; omega
  | ⟨1, _⟩ => show win0_4.index t (1 : Fin 2) * 256 + 1 * j.val = j.val; omega

/-- Window 5 is the whole of its array at every point: entry (k, j) of the block is entry (k, j) of the array (the masked recurrent weights). -/
theorem place5 (t : Fin cfg0.N) (k : Fin 256) (j : Fin 256) :
    ((cfg0.win 5).blk t).view.emb (ix2 k j) = ix2 k j := by
  obtain ⟨ht, r0, c0, r1, c1, r2, c2, r3, c3, r6, c6, r7, c7, r8, c8, r4, c4, r5, c5⟩ := block_index t
  funext a; apply Fin.ext
  match a with
  | ⟨0, _⟩ => show win0_5.index t (0 : Fin 2) * 256 + 1 * k.val = k.val; omega
  | ⟨1, _⟩ => show win0_5.index t (1 : Fin 2) * 256 + 1 * j.val = j.val; omega

/-- Entry (p, j) of window 6's block at point `t` is entry (2048·t + p, j) of its array (the new potentials). -/
theorem place6 (t : Fin cfg0.N) (p : Fin 2048) (j : Fin 256) :
    ((cfg0.win 6).blk t).view.emb (ix2 p j) = ix2 (blockRow t p) j := by
  obtain ⟨ht, r0, c0, r1, c1, r2, c2, r3, c3, r6, c6, r7, c7, r8, c8, r4, c4, r5, c5⟩ := block_index t
  funext a; apply Fin.ext
  match a with
  | ⟨0, _⟩ => show win0_6.index t (0 : Fin 2) * 2048 + 1 * p.val = t.val * 2048 + p.val; omega
  | ⟨1, _⟩ => show win0_6.index t (1 : Fin 2) * 256 + 1 * j.val = j.val; omega

/-- Entry (p, j) of window 7's block at point `t` is entry (2048·t + p, j) of its array (the new spikes). -/
theorem place7 (t : Fin cfg0.N) (p : Fin 2048) (j : Fin 256) :
    ((cfg0.win 7).blk t).view.emb (ix2 p j) = ix2 (blockRow t p) j := by
  obtain ⟨ht, r0, c0, r1, c1, r2, c2, r3, c3, r6, c6, r7, c7, r8, c8, r4, c4, r5, c5⟩ := block_index t
  funext a; apply Fin.ext
  match a with
  | ⟨0, _⟩ => show win0_7.index t (0 : Fin 2) * 2048 + 1 * p.val = t.val * 2048 + p.val; omega
  | ⟨1, _⟩ => show win0_7.index t (1 : Fin 2) * 256 + 1 * j.val = j.val; omega

/-- Entry (p, j) of window 8's block at point `t` is entry (2048·t + p, j) of its array (the new counters). -/
theorem place8 (t : Fin cfg0.N) (p : Fin 2048) (j : Fin 256) :
    ((cfg0.win 8).blk t).view.emb (ix2 p j) = ix2 (blockRow t p) j := by
  obtain ⟨ht, r0, c0, r1, c1, r2, c2, r3, c3, r6, c6, r7, c7, r8, c8, r4, c4, r5, c5⟩ := block_index t
  funext a; apply Fin.ext
  match a with
  | ⟨0, _⟩ => show win0_8.index t (0 : Fin 2) * 2048 + 1 * p.val = t.val * 2048 + p.val; omega
  | ⟨1, _⟩ => show win0_8.index t (1 : Fin 2) * 256 + 1 * j.val = j.val; omega

/-! ## The input blocks read as entries of the arrays the region finds -/

theorem read0 (c : Dev nD) (t : Fin cfg0.N) (p : Fin 2048) (j : Fin 128) :
    iblk m c 0 t (ix2 p j) = V m c main_arg0 (ix2 (blockRow t p) j) := by
  show V m c main_arg0 (((cfg0.win 0).blk t).view.emb (ix2 p j)) = _
  rw [place0]

theorem read1 (c : Dev nD) (t : Fin cfg0.N) (p : Fin 2048) (j : Fin 256) :
    iblk m c 1 t (ix2 p j) = V m c main_arg1 (ix2 (blockRow t p) j) := by
  show V m c main_arg1 (((cfg0.win 1).blk t).view.emb (ix2 p j)) = _
  rw [place1]

theorem read2 (c : Dev nD) (t : Fin cfg0.N) (p : Fin 2048) (j : Fin 256) :
    iblk m c 2 t (ix2 p j) = V m c main_arg2 (ix2 (blockRow t p) j) := by
  show V m c main_arg2 (((cfg0.win 2).blk t).view.emb (ix2 p j)) = _
  rw [place2]

theorem read3 (c : Dev nD) (t : Fin cfg0.N) (p : Fin 2048) (j : Fin 256) :
    iblk m c 3 t (ix2 p j) = V m c main_arg3 (ix2 (blockRow t p) j) := by
  show V m c main_arg3 (((cfg0.win 3).blk t).view.emb (ix2 p j)) = _
  rw [place3]

theorem read4 (c : Dev nD) (t : Fin cfg0.N) (k : Fin 128) (j : Fin 256) :
    iblk m c 4 t (ix2 k j) = V m c main_arg4 (ix2 k j) := by
  show V m c main_arg4 (((cfg0.win 4).blk t).view.emb (ix2 k j)) = _
  rw [place4]

theorem read5 (c : Dev nD) (t : Fin cfg0.N) (k : Fin 256) (j : Fin 256) :
    iblk m c 5 t (ix2 k j) = V m c main_v6 (ix2 k j) := by
  show V m c main_v6 (((cfg0.win 5).blk t).view.emb (ix2 k j)) = _
  rw [place5]

/-! ## One block's stored values are the specification read at the block's place -/

theorem potential_block (c : Dev nD) (t : Fin cfg0.N) (p : Fin 2048) (q : Fin 256) :
    k0_pay2 (F := Ideal) (iblk m c 0 t) (iblk m c 3 t) (iblk m c 4 t) (iblk m c 5 t) (iblk m c 1 t) (ix2 p q)
      = potentials (V m c main_arg0) (V m c main_arg1) (V m c main_arg3) (V m c main_arg4) (V m c main_v6) (ix2 (blockRow t p) q) := by
  refine (Payload.potential_at (iblk m c 0 t) (iblk m c 3 t) (iblk m c 4 t) (iblk m c 5 t) (iblk m c 1 t) p q).trans ?_
  unfold potentials inputCurrent recurrentCurrent
  simp only [read0, read1, read3, read4, read5]

theorem spike_block (c : Dev nD) (t : Fin cfg0.N) (p : Fin 2048) (q : Fin 256) :
    k0_pay3 (F := Ideal) (iblk m c 0 t) (iblk m c 3 t) (iblk m c 4 t) (iblk m c 5 t) (iblk m c 1 t) (iblk m c 2 t) (ix2 p q)
      = spikes (V m c main_arg0) (V m c main_arg1) (V m c main_arg2) (V m c main_arg3) (V m c main_arg4) (V m c main_v6) (ix2 (blockRow t p) q) := by
  refine (Payload.spike_at (iblk m c 0 t) (iblk m c 3 t) (iblk m c 4 t) (iblk m c 5 t) (iblk m c 1 t) (iblk m c 2 t) p q).trans ?_
  rw [potential_block, read2]
  rfl

theorem counter_block (c : Dev nD) (t : Fin cfg0.N) (p : Fin 2048) (q : Fin 256) :
    k0_pay1 (k0_pay4 (F := Ideal) (iblk m c 2 t)) (k0_pay5 (F := Ideal) (iblk m c 0 t) (iblk m c 3 t) (iblk m c 4 t) (iblk m c 5 t) (iblk m c 1 t) (iblk m c 2 t)) (ix2 p q)
      = counters (V m c main_arg0) (V m c main_arg1) (V m c main_arg2) (V m c main_arg3) (V m c main_arg4) (V m c main_v6) (ix2 (blockRow t p) q) := by
  refine (Payload.counter_at (iblk m c 0 t) (iblk m c 3 t) (iblk m c 4 t) (iblk m c 5 t) (iblk m c 1 t) (iblk m c 2 t) p q).trans ?_
  rw [potential_block, read2]
  rfl

/-! ## The blocks written back, the cover, the arrays after the run -/

/-! ### Output window 6 -/

/-- What point `t` writes back to output window 6's array is block `t` of `potentials` of the arrays as the region finds them. -/
theorem flushed_potentials (c : Dev nD) (t : Fin cfg0.N) :
    (dats m 0 c).flushed 6 t = ((cfg0.win 6).blk t).view.read (Elt Ideal) (potentials (V m c main_arg0) (V m c main_arg1) (V m c main_arg3) (V m c main_arg4) (V m c main_v6)) := by
  rw [flushed6]
  unfold out0_6
  rw [View.canon_unit_zero zeros]
  simp only [View.ld_unit_zero (S := S2048x128) zeros, View.ld_unit_zero (S := S2048x256) zeros, View.ld_unit_zero (S := S128x256) zeros, View.ld_unit_zero (S := S256x256) zeros]
  -- the window is not cut, and reading a block of an array reads the array where the block's entry sits
  have hcut : ∀ X : Vec Ideal S2048x256 .f32, (cfg0.win 6).cut (grid0.coords t) X = X := fun _ => rfl
  have hread : ∀ (G : S65536x256.Idx → EReal) (y : S2048x256.Idx),
      ((cfg0.win 6).blk t).view.read (Elt Ideal) G y = G (((cfg0.win 6).blk t).view.emb y) := fun _ _ => rfl
  rw [hcut]
  funext y
  obtain ⟨p, q, rfl⟩ : ∃ (p : Fin 2048) (q : Fin 256), y = ix2 p q :=
    ⟨⟨(y 0).val, (y 0).isLt⟩, ⟨(y 1).val, (y 1).isLt⟩, funext fun a => by match a with | ⟨0, _⟩ => rfl | ⟨1, _⟩ => rfl⟩
  rw [hread, place6]
  exact potential_block m c t p q
/-- An index of the array is in point `t`'s block iff each coordinate is in the block's range on its axis. -/
theorem mem_block6 (t : Fin cfg0.N) (i : S65536x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v7_0).slice (win0_6.rect t)).set ↔ _
  rw [View.set_slice_whole, Rect.mem_set_unit]
  exact Iff.rfl

/-- Every index of the array lies in the block of the point its row falls in: row `n` is in block `n / 2048`. -/
theorem covered6 (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  obtain ⟨t, ht'⟩ : ∃ t : Fin cfg0.N, t.val = (i 0).val / 2048 :=
    ⟨⟨(i 0).val / 2048, by show (i 0).val / 2048 < grid0.N; rw [N_0]; omega⟩, rfl⟩
  obtain ⟨ht, r0, c0, r1, c1, r2, c2, r3, c3, r6, c6, r7, c7, r8, c8, r4, c4, r5, c5⟩ := block_index t
  refine ⟨t, flush0_6 t, ?_⟩
  rw [mem_block6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 256 ≤ (i 1).val ∧ (i 1).val < win0_6.index t (1 : Fin 2) * 256 + 256; omega

/-- The array after the run is `potentials` of the arrays as the region finds them. -/
theorem final_potentials (c : Dev nD) : (dats m 0 c).arrAt 6 cfg0.N = potentials (V m c main_arg0) (V m c main_arg1) (V m c main_arg3) (V m c main_arg4) (V m c main_v6) :=
  (dats m 0 c).arrAt_eq_of_cover 6 (potentials (V m c main_arg0) (V m c main_arg1) (V m c main_arg3) (V m c main_arg4) (V m c main_v6)) (fun t _ => flushed_potentials m c t) covered6

/-! ### Output window 7 -/

/-- What point `t` writes back to output window 7's array is block `t` of `spikes` of the arrays as the region finds them. -/
theorem flushed_spikes (c : Dev nD) (t : Fin cfg0.N) :
    (dats m 0 c).flushed 7 t = ((cfg0.win 7).blk t).view.read (Elt Ideal) (spikes (V m c main_arg0) (V m c main_arg1) (V m c main_arg2) (V m c main_arg3) (V m c main_arg4) (V m c main_v6)) := by
  rw [flushed7]
  unfold out0_7
  rw [View.canon_unit_zero zeros]
  simp only [View.ld_unit_zero (S := S2048x128) zeros, View.ld_unit_zero (S := S2048x256) zeros, View.ld_unit_zero (S := S128x256) zeros, View.ld_unit_zero (S := S256x256) zeros]
  -- the window is not cut, and reading a block of an array reads the array where the block's entry sits
  have hcut : ∀ X : Vec Ideal S2048x256 .f32, (cfg0.win 7).cut (grid0.coords t) X = X := fun _ => rfl
  have hread : ∀ (G : S65536x256.Idx → EReal) (y : S2048x256.Idx),
      ((cfg0.win 7).blk t).view.read (Elt Ideal) G y = G (((cfg0.win 7).blk t).view.emb y) := fun _ _ => rfl
  rw [hcut]
  funext y
  obtain ⟨p, q, rfl⟩ : ∃ (p : Fin 2048) (q : Fin 256), y = ix2 p q :=
    ⟨⟨(y 0).val, (y 0).isLt⟩, ⟨(y 1).val, (y 1).isLt⟩, funext fun a => by match a with | ⟨0, _⟩ => rfl | ⟨1, _⟩ => rfl⟩
  rw [hread, place7]
  exact spike_block m c t p q
/-- An index of the array is in point `t`'s block iff each coordinate is in the block's range on its axis. -/
theorem mem_block7 (t : Fin cfg0.N) (i : S65536x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v7_1).slice (win0_7.rect t)).set ↔ _
  rw [View.set_slice_whole, Rect.mem_set_unit]
  exact Iff.rfl

/-- Every index of the array lies in the block of the point its row falls in: row `n` is in block `n / 2048`. -/
theorem covered7 (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht'⟩ : ∃ t : Fin cfg0.N, t.val = (i 0).val / 2048 :=
    ⟨⟨(i 0).val / 2048, by show (i 0).val / 2048 < grid0.N; rw [N_0]; omega⟩, rfl⟩
  obtain ⟨ht, r0, c0, r1, c1, r2, c2, r3, c3, r6, c6, r7, c7, r8, c8, r4, c4, r5, c5⟩ := block_index t
  refine ⟨t, flush0_7 t, ?_⟩
  rw [mem_block7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 256 ≤ (i 1).val ∧ (i 1).val < win0_7.index t (1 : Fin 2) * 256 + 256; omega

/-- The array after the run is `spikes` of the arrays as the region finds them. -/
theorem final_spikes (c : Dev nD) : (dats m 0 c).arrAt 7 cfg0.N = spikes (V m c main_arg0) (V m c main_arg1) (V m c main_arg2) (V m c main_arg3) (V m c main_arg4) (V m c main_v6) :=
  (dats m 0 c).arrAt_eq_of_cover 7 (spikes (V m c main_arg0) (V m c main_arg1) (V m c main_arg2) (V m c main_arg3) (V m c main_arg4) (V m c main_v6)) (fun t _ => flushed_spikes m c t) covered7

/-! ### Output window 8 -/

/-- What point `t` writes back to output window 8's array is block `t` of `counters` of the arrays as the region finds them. -/
theorem flushed_counters (c : Dev nD) (t : Fin cfg0.N) :
    (dats m 0 c).flushed 8 t = ((cfg0.win 8).blk t).view.read (Elt Ideal) (counters (V m c main_arg0) (V m c main_arg1) (V m c main_arg2) (V m c main_arg3) (V m c main_arg4) (V m c main_v6)) := by
  rw [flushed8]
  unfold out0_8
  rw [View.canon_unit_zero zeros]
  simp only [View.ld_unit_zero (S := S2048x128) zeros, View.ld_unit_zero (S := S2048x256) zeros, View.ld_unit_zero (S := S128x256) zeros, View.ld_unit_zero (S := S256x256) zeros]
  -- the window is not cut, and reading a block of an array reads the array where the block's entry sits
  have hcut : ∀ X : Vec Ideal S2048x256 .i32, (cfg0.win 8).cut (grid0.coords t) X = X := fun _ => rfl
  have hread : ∀ (G : S65536x256.Idx → BitVec 32) (y : S2048x256.Idx),
      ((cfg0.win 8).blk t).view.read (Elt Ideal) G y = G (((cfg0.win 8).blk t).view.emb y) := fun _ _ => rfl
  rw [hcut]
  funext y
  obtain ⟨p, q, rfl⟩ : ∃ (p : Fin 2048) (q : Fin 256), y = ix2 p q :=
    ⟨⟨(y 0).val, (y 0).isLt⟩, ⟨(y 1).val, (y 1).isLt⟩, funext fun a => by match a with | ⟨0, _⟩ => rfl | ⟨1, _⟩ => rfl⟩
  rw [hread, place8]
  exact counter_block m c t p q
/-- An index of the array is in point `t`'s block iff each coordinate is in the block's range on its axis. -/
theorem mem_block8 (t : Fin cfg0.N) (i : S65536x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v7_2).slice (win0_8.rect t)).set ↔ _
  rw [View.set_slice_whole, Rect.mem_set_unit]
  exact Iff.rfl

/-- Every index of the array lies in the block of the point its row falls in: row `n` is in block `n / 2048`. -/
theorem covered8 (i : S65536x256.Idx) :
    ∃ t : Fin cfg0.N, (cfg0.win 8).flush t = true ∧ i ∈ ((cfg0.win 8).blk t).view.set := by
  have hi0 : (i 0).val < 65536 := (i 0).isLt
  have hi1 : (i 1).val < 256 := (i 1).isLt
  obtain ⟨t, ht'⟩ : ∃ t : Fin cfg0.N, t.val = (i 0).val / 2048 :=
    ⟨⟨(i 0).val / 2048, by show (i 0).val / 2048 < grid0.N; rw [N_0]; omega⟩, rfl⟩
  obtain ⟨ht, r0, c0, r1, c1, r2, c2, r3, c3, r6, c6, r7, c7, r8, c8, r4, c4, r5, c5⟩ := block_index t
  refine ⟨t, flush0_8 t, ?_⟩
  rw [mem_block8]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 256 ≤ (i 1).val ∧ (i 1).val < win0_8.index t (1 : Fin 2) * 256 + 256; omega

/-- The array after the run is `counters` of the arrays as the region finds them. -/
theorem final_counters (c : Dev nD) : (dats m 0 c).arrAt 8 cfg0.N = counters (V m c main_arg0) (V m c main_arg1) (V m c main_arg2) (V m c main_arg3) (V m c main_arg4) (V m c main_v6) :=
  (dats m 0 c).arrAt_eq_of_cover 8 (counters (V m c main_arg0) (V m c main_arg1) (V m c main_arg2) (V m c main_arg3) (V m c main_arg4) (V m c main_v6)) (fun t _ => flushed_counters m c t) covered8

end Cert.KernelIdeal.Arrays

end
-- ==== Proof.KernelWeights.lean ====
/-
  The recurrent weights as the kernel's blocks find them.

  Before the blocks run, the program masks the recurrent weights with seven whole-array operations on the
  256 × 256 arguments: a select on the connectivity mask against a zero splat, the maximum with a zero splat, a
  negation, the maximum of that with a zero splat, another negation, a select on the sign mask between the two, and
  a select on the disconnect mask against a zero splat. Read at an entry this is `LifStep.maskedWeights` of the
  four argument arrays: a select reads its three operands at the entry, a maximum is `max`, a negation is `-`,
  and a splat of the zero word is that word everywhere.
-/
import proofs.«141467_j11364483465332_2_alg».proof.Proof.Gen.KernelIdeal.Frame
import proofs.«141467_j11364483465332_2_alg».proof.Proof.LifStep
import Idealize.ShloMosaic.Lib.StableHlo.Run
import Idealize.ShloMosaic.Lib.Pipeline.Value
import Idealize.ShloMosaic.Lib.ValueIdx

noncomputable section

namespace Cert.KernelIdeal.Weights

open Cert.KernelIdeal Cert.KernelIdeal.Gen Idealize.ShloMosaic Idealize.ShloMosaic.TcCoe Idealize.SL.Sem
open Idealize.ShloMosaic.StableHlo Idealize.ShloMosaic.ValueIdx Cert.LifStep

variable (m : (ℓ : Loc nD τ sig) → Buf (Elt Ideal) ℓ)

/-- A splat of one float word over the 256 × 256 shape is that word at every entry. -/
theorem splat_at (x : FVec Ideal S_ .f32) (j : S256x256.Idx) :
    broadcastInDim S256x256 ![] bcast_S_S256x256 x j = x ix0 :=
  broadcastInDim_apply _ bcast_S_S256x256 x j ix0 (fun a => a.elim0)

/-- The seven masking operations composed: what the array window 5 stages holds when the blocks start. -/
def maskingTerm (c : Dev nD) : S256x256.Idx → EReal :=
  select (m ((c : Thread nD τ).loc main_arg8))
          (broadcastInDim S256x256 ![] bcast_S_S256x256 (id (constant (F := Ideal) S_ .f32 0x00000000#32)))
          (select (m ((c : Thread nD τ).loc main_arg7))
            (maximumf (select (m ((c : Thread nD τ).loc main_arg6)) (m ((c : Thread nD τ).loc main_arg5))
                (broadcastInDim S256x256 ![] bcast_S_S256x256 (id (constant (F := Ideal) S_ .f32 0x00000000#32))))
              (broadcastInDim S256x256 ![] bcast_S_S256x256 (constant (F := Ideal) S_ .f32 0x00000000#32)))
            (Host.negf (maximumf (Host.negf (select (m ((c : Thread nD τ).loc main_arg6)) (m ((c : Thread nD τ).loc main_arg5))
                (broadcastInDim S256x256 ![] bcast_S_S256x256 (id (constant (F := Ideal) S_ .f32 0x00000000#32)))))
              (broadcastInDim S256x256 ![] bcast_S_S256x256 (constant (F := Ideal) S_ .f32 0x00000000#32)))))

set_option maxHeartbeats 4000000 in
/-- The array window 5 stages, as the region finds it, is the seven operations applied to the four arguments. -/
theorem weights_term (c : Dev nD) : (V m c main_v6 : S256x256.Idx → EReal) = maskingTerm m c := by
  unfold maskingTerm
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp <;> rfl

/-- Read at an entry, the composed masking is `LifStep.maskedWeights`. -/
theorem maskingTerm_eq (c : Dev nD) :
    maskingTerm m c = maskedWeights (m ((c : Thread nD τ).loc main_arg5)) (m ((c : Thread nD τ).loc main_arg6))
          (m ((c : Thread nD τ).loc main_arg7)) (m ((c : Thread nD τ).loc main_arg8)) := by
  funext j
  unfold maskingTerm maskedWeights
  simp only [select_apply, maximumf_apply]
  rw [splat_at, splat_at]
  rfl

/-- The array window 5 stages, as the region finds it, is the masked weights of the four arguments. -/
theorem weights_eq (c : Dev nD) :
    (V m c main_v6 : S256x256.Idx → EReal)
      = maskedWeights (m ((c : Thread nD τ).loc main_arg5)) (m ((c : Thread nD τ).loc main_arg6))
          (m ((c : Thread nD τ).loc main_arg7)) (m ((c : Thread nD τ).loc main_arg8)) :=
  (weights_term m c).trans (maskingTerm_eq m c)

end Cert.KernelIdeal.Weights

end
-- ==== Proof.KernelRun.lean ====
/-
  The kernel's run, with its three result arrays named.

  After the run the result arrays hold `potentials`, `spikes` and `counters` (LifStep) of the arrays the region
  finds (KernelArrays). The region finds the five staged arguments as launched, since no operation before it
  writes them, and it finds the sixth staged array as the masked weights of the four remaining arguments
  (KernelWeights). So each result is the specification's function of the nine launch arguments, and the arguments
  end unchanged.
-/
import proofs.«141467_j11364483465332_2_alg».proof.Proof.KernelArrays
import proofs.«141467_j11364483465332_2_alg».proof.Proof.KernelWeights

noncomputable section

namespace Cert.KernelIdeal.Run

open Cert.KernelIdeal Cert.KernelIdeal.Gen Cert.KernelIdeal.Value Idealize.ShloMosaic Idealize.ShloMosaic.TcCoe Idealize.SL.Sem
open Cert.LifStep Cert.KernelIdeal.Arrays
open Idealize.ShloMosaic.Pipeline (Dat)

variable (m : (ℓ : Loc nD τ sig) → Buf (Elt Ideal) ℓ) (ρ : Dev nD → PrngReg)

theorem after_potentials (c : Dev nD) : (dats m 0 c).arrAt 6 cfg0.N = potentials (m ((c : Thread nD τ).loc main_arg0)) (m ((c : Thread nD τ).loc main_arg1)) (m ((c : Thread nD τ).loc main_arg3)) (m ((c : Thread nD τ).loc main_arg4)) (maskedWeights (m ((c : Thread nD τ).loc main_arg5)) (m ((c : Thread nD τ).loc main_arg6)) (m ((c : Thread nD τ).loc main_arg7)) (m ((c : Thread nD τ).loc main_arg8))) := by
  rw [final_potentials, V_main_arg0, V_main_arg1, V_main_arg3, V_main_arg4, Weights.weights_eq]

theorem after_spikes (c : Dev nD) : (dats m 0 c).arrAt 7 cfg0.N = spikes (m ((c : Thread nD τ).loc main_arg0)) (m ((c : Thread nD τ).loc main_arg1)) (m ((c : Thread nD τ).loc main_arg2)) (m ((c : Thread nD τ).loc main_arg3)) (m ((c : Thread nD τ).loc main_arg4)) (maskedWeights (m ((c : Thread nD τ).loc main_arg5)) (m ((c : Thread nD τ).loc main_arg6)) (m ((c : Thread nD τ).loc main_arg7)) (m ((c : Thread nD τ).loc main_arg8))) := by
  rw [final_spikes, V_main_arg0, V_main_arg1, V_main_arg2, V_main_arg3, V_main_arg4, Weights.weights_eq]

theorem after_counters (c : Dev nD) : (dats m 0 c).arrAt 8 cfg0.N = counters (m ((c : Thread nD τ).loc main_arg0)) (m ((c : Thread nD τ).loc main_arg1)) (m ((c : Thread nD τ).loc main_arg2)) (m ((c : Thread nD τ).loc main_arg3)) (m ((c : Thread nD τ).loc main_arg4)) (maskedWeights (m ((c : Thread nD τ).loc main_arg5)) (m ((c : Thread nD τ).loc main_arg6)) (m ((c : Thread nD τ).loc main_arg7)) (m ((c : Thread nD τ).loc main_arg8))) := by
  rw [final_counters, V_main_arg0, V_main_arg1, V_main_arg2, V_main_arg3, V_main_arg4, Weights.weights_eq]

/-- Every weakly fair execution of the kernel's program terminates with the three results at the specification's
    arrays of the launch arguments, and the arguments unchanged. -/
theorem run : θ_run defs (onTc (τ := τ) (main (F := Ideal))) ⟨m, fun _ => 0, ρ⟩ fun r => ∀ c : Dev nD,
      r.2.mem ((c : Thread nD τ).loc main_v7_0) = potentials (m ((c : Thread nD τ).loc main_arg0)) (m ((c : Thread nD τ).loc main_arg1)) (m ((c : Thread nD τ).loc main_arg3)) (m ((c : Thread nD τ).loc main_arg4)) (maskedWeights (m ((c : Thread nD τ).loc main_arg5)) (m ((c : Thread nD τ).loc main_arg6)) (m ((c : Thread nD τ).loc main_arg7)) (m ((c : Thread nD τ).loc main_arg8)))
      ∧ r.2.mem ((c : Thread nD τ).loc main_v7_1) = spikes (m ((c : Thread nD τ).loc main_arg0)) (m ((c : Thread nD τ).loc main_arg1)) (m ((c : Thread nD τ).loc main_arg2)) (m ((c : Thread nD τ).loc main_arg3)) (m ((c : Thread nD τ).loc main_arg4)) (maskedWeights (m ((c : Thread nD τ).loc main_arg5)) (m ((c : Thread nD τ).loc main_arg6)) (m ((c : Thread nD τ).loc main_arg7)) (m ((c : Thread nD τ).loc main_arg8)))
      ∧ r.2.mem ((c : Thread nD τ).loc main_v7_2) = counters (m ((c : Thread nD τ).loc main_arg0)) (m ((c : Thread nD τ).loc main_arg1)) (m ((c : Thread nD τ).loc main_arg2)) (m ((c : Thread nD τ).loc main_arg3)) (m ((c : Thread nD τ).loc main_arg4)) (maskedWeights (m ((c : Thread nD τ).loc main_arg5)) (m ((c : Thread nD τ).loc main_arg6)) (m ((c : Thread nD τ).loc main_arg7)) (m ((c : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (after_potentials m c), (h c).2.1.trans (after_spikes m c),
      (h c).2.2.1.trans (after_counters m c), (h c).2.2.2⟩)
    (run_blocks m ρ)

end Cert.KernelIdeal.Run

end
-- ==== Proof.ReferenceArrays.lean ====
/-
  The reference's three results are the specification's arrays.

  The reference is a straight line of whole-array operations. Read at an index `i` = (row, neuron), stage by stage:
  the masked weights at an entry are `LifStep.maskedWeights`; the two matrix products at `i` are the finite sums over
  the contracted axis of row `i 0` of the left operand times column `i 1` of the right one — the two currents —; the
  splats are their words; and the remaining operations act entry by entry, in the same order and with the same
  words as `membrane`, `spike` and `counter`. The reference divides with the host's quotient and turns the threshold
  bit into a number as an unsigned integer; over the extended reals these are the quotient and the number the
  specification names.
-/
import proofs.«141467_j11364483465332_2_alg».proof.Proof.ReferenceReadPatched
import proofs.«141467_j11364483465332_2_alg».proof.Proof.LifStep
import Idealize.ShloMosaic.Lib.ValueIdx

noncomputable section

namespace Cert.ReferenceIdeal.Arrays

open Cert.ReferenceIdeal Cert.ReferenceIdeal.ReadP Idealize.ShloMosaic Idealize.ShloMosaic.ValueIdx Cert.LifStep

/-- The reference's masked weights, read at an entry, are the specification's. -/
theorem weights_eq (x5 : (⟨S256x256, .f32⟩ : BufTy).Contents (Elt Ideal)) (x6 : (⟨S256x256, .i1⟩ : BufTy).Contents (Elt Ideal)) (x7 : (⟨S256x256, .i1⟩ : BufTy).Contents (Elt Ideal)) (x8 : (⟨S256x256, .i1⟩ : BufTy).Contents (Elt Ideal)) :
    val_main_v6 (F := Ideal) x5 x6 x7 x8 = maskedWeights x5 x6 x7 x8 := by
  funext j
  simp only [val_main_v6_apply, val_main_call4_v1_apply, val_main_call4_v0_apply, val_main_cst_0_apply,
    val_main_v5_apply, val_main_v4_apply, val_main_v3_apply, val_main_v2_apply, val_main_v1_apply, val_main_v0_apply,
    val_main_call0_v1_apply, val_main_call0_v0_apply, val_main_cst_apply,
    val_main_call1_v0_apply, val_main_call1_cst_apply, val_main_call2_v0_apply, val_main_call2_cst_apply]
  rfl

/-- The reference's first result is the array of new potentials. -/
theorem potentials_eq (x0 : (⟨S65536x128, .f32⟩ : BufTy).Contents (Elt Ideal)) (x1 : (⟨S65536x256, .f32⟩ : BufTy).Contents (Elt Ideal)) (x3 : (⟨S65536x256, .f32⟩ : BufTy).Contents (Elt Ideal)) (x4 : (⟨S128x256, .f32⟩ : BufTy).Contents (Elt Ideal)) (x5 : (⟨S256x256, .f32⟩ : BufTy).Contents (Elt Ideal)) (x6 : (⟨S256x256, .i1⟩ : BufTy).Contents (Elt Ideal)) (x7 : (⟨S256x256, .i1⟩ : BufTy).Contents (Elt Ideal)) (x8 : (⟨S256x256, .i1⟩ : BufTy).Contents (Elt Ideal)) :
    val_main_v15 (F := Ideal) x0 x1 x3 x4 x5 x6 x7 x8 = potentials x0 x1 x3 x4 (maskedWeights x5 x6 x7 x8) := by
  funext i
  have hl7 : ∀ k, lidx_main_v7 i k = ix2 (rowOf i) k := fun k =>
    funext fun a => by match a with | ⟨0, _⟩ => rfl | ⟨1, _⟩ => rfl
  have hr7 : ∀ k, ridx_main_v7 i k = ix2 k (unitOf i) := fun k =>
    funext fun a => by match a with | ⟨0, _⟩ => rfl | ⟨1, _⟩ => rfl
  have hl8 : ∀ k, lidx_main_v8 i k = ix2 (rowOf i) k := fun k =>
    funext fun a => by match a with | ⟨0, _⟩ => rfl | ⟨1, _⟩ => rfl
  have hr8 : ∀ k, ridx_main_v8 i k = ix2 k (unitOf i) := fun k =>
    funext fun a => by match a with | ⟨0, _⟩ => rfl | ⟨1, _⟩ => rfl
  simp only [val_main_v15_apply, val_main_v14_apply, val_main_v13_apply, val_main_cst_2_apply, val_main_v12_apply,
    val_main_v11_apply, val_main_v10_apply, val_main_cst_1_apply, val_main_v9_apply, val_main_v7_apply, val_main_v8_apply,
    hl7, hr7, hl8, hr8, weights_eq]
  rfl

/-- The reference's second result is the array of new spikes. -/
theorem spikes_eq (x0 : (⟨S65536x128, .f32⟩ : BufTy).Contents (Elt Ideal)) (x1 : (⟨S65536x256, .f32⟩ : BufTy).Contents (Elt Ideal)) (x2 : (⟨S65536x256, .i32⟩ : BufTy).Contents (Elt Ideal)) (x3 : (⟨S65536x256, .f32⟩ : BufTy).Contents (Elt Ideal)) (x4 : (⟨S128x256, .f32⟩ : BufTy).Contents (Elt Ideal)) (x5 : (⟨S256x256, .f32⟩ : BufTy).Contents (Elt Ideal)) (x6 : (⟨S256x256, .i1⟩ : BufTy).Contents (Elt Ideal)) (x7 : (⟨S256x256, .i1⟩ : BufTy).Contents (Elt Ideal)) (x8 : (⟨S256x256, .i1⟩ : BufTy).Contents (Elt Ideal)) :
    val_main_v25 (F := Ideal) x0 x1 x2 x3 x4 x5 x6 x7 x8 = spikes x0 x1 x2 x3 x4 (maskedWeights x5 x6 x7 x8) := by
  funext i
  simp only [val_main_v25_apply, val_main_v24_apply, val_main_v23_apply, val_main_c_apply,
    val_main_call5_v1_apply, val_main_call5_v0_apply, val_main_cst_6_apply,
    val_main_v22_apply, val_main_v21_apply, val_main_v20_apply, val_main_cst_5_apply,
    val_main_v19_apply, val_main_v18_apply, val_main_cst_4_apply, val_main_v17_apply, val_main_v16_apply, val_main_cst_3_apply,
    potentials_eq]
  rfl

/-- The reference's third result is the array of new counters. -/
theorem counters_eq (x0 : (⟨S65536x128, .f32⟩ : BufTy).Contents (Elt Ideal)) (x1 : (⟨S65536x256, .f32⟩ : BufTy).Contents (Elt Ideal)) (x2 : (⟨S65536x256, .i32⟩ : BufTy).Contents (Elt Ideal)) (x3 : (⟨S65536x256, .f32⟩ : BufTy).Contents (Elt Ideal)) (x4 : (⟨S128x256, .f32⟩ : BufTy).Contents (Elt Ideal)) (x5 : (⟨S256x256, .f32⟩ : BufTy).Contents (Elt Ideal)) (x6 : (⟨S256x256, .i1⟩ : BufTy).Contents (Elt Ideal)) (x7 : (⟨S256x256, .i1⟩ : BufTy).Contents (Elt Ideal)) (x8 : (⟨S256x256, .i1⟩ : BufTy).Contents (Elt Ideal)) :
    val_main_v32 (F := Ideal) x0 x1 x2 x3 x4 x5 x6 x7 x8 = counters x0 x1 x2 x3 x4 (maskedWeights x5 x6 x7 x8) := by
  funext i
  simp only [val_main_v32_apply, val_main_call6_v4_apply, val_main_call6_v3_apply, val_main_c_10_apply,
    val_main_call6_v2_apply, val_main_call6_v1_apply, val_main_call6_v0_apply, val_main_c_9_apply,
    val_main_v31_apply, val_main_v27_apply, val_main_v26_apply, val_main_c_7_apply,
    val_main_v30_apply, val_main_v29_apply, val_main_v28_apply, val_main_cst_8_apply,
    spikes_eq]
  rfl

end Cert.ReferenceIdeal.Arrays

end
-- ==== Proof.lean ====
/-
  One step of a layer of leaky integrate-and-fire neurons: a tiled kernel against a whole-array reference, equal
  over the extended reals.

  Both programs take a batch of 65536 input rows `x` (128 features), the layer's state — potentials `v`, refractory
  counters `r`, previous spikes `z` (256 neurons) —, the input weights, and the recurrent weights with three masks,
  and return the new potentials, the new spikes and the new counters. Both first mask the recurrent weights, entry
  by entry, with the same seven whole-array operations. The reference then computes on whole arrays; the kernel
  cuts the batch into 32 blocks of 2048 rows and computes each block with the two weight matrices staged whole.

  For row p and neuron q both compute (module LifStep)
      u  = decay · v + ((Σ_k x(p,k)·iw(k,q) + Σ_k z(p,k)·w(k,q)) − 1 · z)      the new potential,
      s  = 0 if r > 0, else the bit [(u − 1)/1 > 0] as a number                 the new spike,
      r' = min(5, max(0, (r − 1) + trunc(s · 5)))                               the new counter,
  with the same grouping and the same float words, so no law of arithmetic is needed beyond these three facts:
  a matrix product accumulated from zero is, entry by entry, the finite sum of products, whatever the tiling of the
  batch axis (the contracted axes, 128 and 256 long, are never cut); the host's quotient is the quotient; and a bit
  widened to 32 bits and read as a signed integer is the bit read as an unsigned one. None of them needs the
  inputs to be finite: the value claim never opens the precondition.

  The pieces: KernelProducts and KernelPayload read one block's stored values at an entry; KernelArrays goes from
  the 32 blocks to the three whole arrays (row n lies in block n / 2048, and the blocks tile the arrays);
  KernelWeights reads the masked weights the blocks find; KernelRun names the kernel's results; ReferenceArrays
  reads the reference's results stage by stage. Here the two runs are set side by side. The three frame claims are
  the generated ones; the idealized kernel is the kernel's own text read over the extended reals, so nothing is
  owed for that conjunct.
-/
import proofs.«141467_j11364483465332_2_alg».proof.Defs
import proofs.«141467_j11364483465332_2_alg».proof.Proof.Gen.Kernel
import proofs.«141467_j11364483465332_2_alg».proof.Proof.Gen.Kernel.Skeleton
import proofs.«141467_j11364483465332_2_alg».proof.Proof.Gen.Kernel.Launch
import proofs.«141467_j11364483465332_2_alg».proof.Proof.Gen.Kernel.Points
import proofs.«141467_j11364483465332_2_alg».proof.Proof.Gen.Kernel.Frame
import proofs.«141467_j11364483465332_2_alg».proof.Proof.Gen.KernelIdeal
import proofs.«141467_j11364483465332_2_alg».proof.Proof.Gen.KernelIdeal.Skeleton
import proofs.«141467_j11364483465332_2_alg».proof.Proof.Gen.KernelIdeal.Launch
import proofs.«141467_j11364483465332_2_alg».proof.Proof.Gen.KernelIdeal.Points
import proofs.«141467_j11364483465332_2_alg».proof.Proof.Gen.KernelIdeal.Frame
import proofs.«141467_j11364483465332_2_alg».proof.Proof.Gen.ReferenceIdeal
import proofs.«141467_j11364483465332_2_alg».proof.Proof.Gen.KernelIdeal.Value
import proofs.«141467_j11364483465332_2_alg».proof.Proof.ReferenceRunPatched
import proofs.«141467_j11364483465332_2_alg».proof.Proof.ReferenceReadPatched
import proofs.«141467_j11364483465332_2_alg».proof.Proof.KernelRun
import proofs.«141467_j11364483465332_2_alg».proof.Proof.ReferenceArrays
import proofs.«141467_j11364483465332_2_alg».proof.Proof.Gen.Pre_finite_inputs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with what it says of the three results dropped. -/
theorem frame_reference : Cert.frame_ReferenceIdeal := fun m ρ _ =>
  (θ_run Cert.ReferenceIdeal.defs _ _).mono (fun _ h c => (h c).2.2.2)
    (Cert.ReferenceIdeal.ValueP.run (F := Ideal) m ρ)

/-- The idealized kernel is the kernel's own text: no operation was rewritten. -/
theorem preserves : Cert.preserves_Kernel_KernelIdeal := trivial

/-- From memories that agree on the nine arguments, the kernel ends with `potentials`, `spikes` and `counters` of
    them (KernelRun), and the reference with its three composed terms, which are the same three arrays
    (ReferenceArrays). -/
theorem algebraic : Cert.algebraic_KernelIdeal_ReferenceIdeal := by
  intro m ρ m' ρ' _ hagree
  refine ⟨_, _, _, Cert.KernelIdeal.Run.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.ValueP.run (F := Ideal) m' ρ')
  all_goals obtain ⟨a0, a1, a2, a3, a4, a5, a6, a7, a8⟩ := hagree c
  · rw [a0, a1, a3, a4, a5, a6, a7, a8]
    exact (Cert.ReferenceIdeal.ReadP.val_main_v15_eq _ _ _ _ _ _ _ _).trans
      (Cert.ReferenceIdeal.Arrays.potentials_eq _ _ _ _ _ _ _ _)
  · rw [a0, a1, a2, a3, a4, a5, a6, a7, a8]
    exact (Cert.ReferenceIdeal.ReadP.val_main_v25_eq _ _ _ _ _ _ _ _ _).trans
      (Cert.ReferenceIdeal.Arrays.spikes_eq _ _ _ _ _ _ _ _ _)
  · rw [a0, a1, a2, a3, a4, a5, a6, a7, a8]
    exact (Cert.ReferenceIdeal.ReadP.val_main_v32_eq _ _ _ _ _ _ _ _ _).trans
      (Cert.ReferenceIdeal.Arrays.counters_eq _ _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
